-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x4 : Shape := ⟨3, ![64, 1024, 4]⟩
abbrev S_ : Shape := ⟨0, ![]⟩

class Facts : Prop where
  bcast_S_S64x1024x4 : S_.BroadcastsInDim S64x1024x4 (![] : Fin 0 → Fin S64x1024x4.rank)
  reducesTo_S64x1024x4_S_d0_1_2 : S64x1024x4.ReducesTo [0, 1, 2] S_
  h_S_ : 0 < S_.numel

variable [Facts]

def fn {F : FTy → Type} [FloatOps F] (main_arg0 : FVec F S64x1024x4 .f32) (main_arg1 : FVec F S64x1024x4 .f32) : IVec S_ 1 :=
  let main_v0 : FVec F S64x1024x4 .f32 := Host.absf main_arg0
  let main_cst : FVec F S_ .f32 := constant S_ .f32 0x7F800000#32
  let main_v1 : FVec F S64x1024x4 .f32 := broadcastInDim S64x1024x4 ![] bcast_S_S64x1024x4 main_cst
  let main_v2 : IVec S64x1024x4 1 := cmpf .olt main_v0 main_v1
  let main_c : IVec S_ 1 := constantI S_ 1 1#1
  let main_v3 : IVec S_ 1 := (fun x v => Host.reduce IntOp.andi x v reducesTo_S64x1024x4_S_d0_1_2 h_S_) main_v2 main_c
  let main_v4 : FVec F S64x1024x4 .f32 := Host.absf main_arg1
  let main_cst_0 : FVec F S_ .f32 := constant S_ .f32 0x7F800000#32
  let main_v5 : FVec F S64x1024x4 .f32 := broadcastInDim S64x1024x4 ![] bcast_S_S64x1024x4 main_cst_0
  let main_v6 : IVec S64x1024x4 1 := cmpf .olt main_v4 main_v5
  let main_c_1 : IVec S_ 1 := constantI S_ 1 1#1
  let main_v7 : IVec S_ 1 := (fun x v => Host.reduce IntOp.andi x v reducesTo_S64x1024x4_S_d0_1_2 h_S_) main_v6 main_c_1
  let main_v8 : IVec S_ 1 := andi main_v3 main_v7
  main_v8
-- ==== Kernel.lean ====
abbrev S64x1024x4 : Shape := ⟨3, ![64, 1024, 4]⟩
abbrev S1x1 : Shape := ⟨2, ![1, 1]⟩
abbrev S1x1024x4 : Shape := ⟨3, ![1, 1024, 4]⟩
abbrev S1024x4 : Shape := ⟨2, ![1024, 4]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S64x1024x4, .f32⟩
  | .hbm, ⟨1, _⟩ => ⟨S64x1024x4, .f32⟩
  | .hbm, ⟨2, _⟩ => ⟨S1x1, .f32⟩
  | .hbm, ⟨3, _⟩ => ⟨S_, .f32⟩
  | .local _ .vmem, ⟨0, _⟩ => ⟨S1x1024x4, .f32⟩
  | .local _ .vmem, ⟨1, _⟩ => ⟨S1x1024x4, .f32⟩
  | .local _ .vmem, ⟨2, _⟩ => ⟨S1x1024x4, .f32⟩
  | .local _ .vmem, ⟨3, _⟩ => ⟨S1x1024x4, .f32⟩
  | .local _ .vmem, ⟨4, _⟩ => ⟨S1x1, .f32⟩
  | .local _ .vmem, ⟨5, _⟩ => ⟨S1x1, .f32⟩
  | _, _ => ⟨S64x1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v35 : BitVec 1 := Scalar.cmpi .eq arg0 c63_i32
  let v36 : BitVec 32 := Scalar.extui v35
  let c0_i32_17 : BitVec 32 := 0#32
  let v37 : BitVec 1 := Scalar.cmpi .ne v36 c0_i32_17
  v37

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  reduces_S1024x4_S1024 : S1024x4.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  reduces_S1024x1_S1 : S1024x1.Reduces [0] S1
  shapeCasts_S1_S1x1 : S1.ShapeCasts S1x1
  reduces_S1x1024_S1 : S1x1024.Reduces [1] S1
  shapeCasts_S1x1_S_ : S1x1.ShapeCasts S_
  dot_S1024x4_S1024x4_S1024x1024_1_1_0_0_n_n_wf : DotDims.WF S1024x4 S1024x4 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4.size a ≤ S64x1024x4.size a
  hwx0_0 : ∀ i : grid0.Coords, EltTy.bits .f32 = 32 ∨ (Rect.block (s := S64x1024x4) S1x1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4.size a ≤ S64x1024x4.size a
  hwx0_1 : ∀ i : grid0.Coords, EltTy.bits .f32 = 32 ∨ (Rect.block (s := S64x1024x4) S1x1024x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x4_S1024x4_S1024x1024_1_1_0_0_n_n : DotDims S1024x4 S1024x4 S1024x1024 where
  lhsContracting := [1]
  rhsContracting := [1]
  lhsNonContracting := [0]
  rhsNonContracting := [0]
  lhsBatch := []
  rhsBatch := []
  wf := dot_S1024x4_S1024x4_S1024x1024_1_1_0_0_n_n_wf

abbrev win0_0 : Pipeline.Window sig grid0 :=
  Pipeline.Window.ofSpec (Memref.whole main_arg0) S1x1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1024x4 : Shape := ⟨3, ![64, 1024, 4]⟩
abbrev S64x1024x1x4 : Shape := ⟨4, ![64, 1024, 1, 4]⟩
abbrev S64x1x1024x4 : Shape := ⟨4, ![64, 1, 1024, 4]⟩
abbrev S64x1024x1024x4 : Shape := ⟨4, ![64, 1024, 1024, 4]⟩
abbrev S_ : Shape := ⟨0, ![]⟩
abbrev S64x1024x1024 : Shape := ⟨3, ![64, 1024, 1024]⟩
abbrev S64x1024 : Shape := ⟨2, ![64, 1024]⟩

abbrev nBuf : Space → Nat
  | .hbm => 17
  | .vmem => 0
  | .smem => 0
  | _ => 0

abbrev bufTy : (tb : Table) → Fin (tcTables nBuf tb) → BufTy
  | .hbm, ⟨0, _⟩ => ⟨S64x1024x4, .f32⟩
  | .hbm, ⟨1, _⟩ => ⟨S64x1024x4, .f32⟩
  | .hbm, ⟨2, _⟩ => ⟨S64x1024x1x4, .f32⟩
  | .hbm, ⟨3, _⟩ => ⟨S64x1x1024x4, .f32⟩
  | .hbm, ⟨4, _⟩ => ⟨S64x1024x1024x4, .f32⟩
  | .hbm, ⟨5, _⟩ => ⟨S64x1024x1024x4, .f32⟩
  | .hbm, ⟨6, _⟩ => ⟨S64x1024x1024x4, .f32⟩
  | .hbm, ⟨7, _⟩ => ⟨S64x1024x1024x4, .f32⟩
  | .hbm, ⟨8, _⟩ => ⟨S_, .f32⟩
  | .hbm, ⟨9, _⟩ => ⟨S64x1024x1024, .f32⟩
  | .hbm, ⟨10, _⟩ => ⟨S_, .f32⟩
  | .hbm, ⟨11, _⟩ => ⟨S64x1024, .f32⟩
  | .hbm, ⟨12, _⟩ => ⟨S_, .f32⟩
  | .hbm, ⟨13, _⟩ => ⟨S64x1024, .f32⟩
  | .hbm, ⟨14, _⟩ => ⟨S64x1024, .f32⟩
  | .hbm, ⟨15, _⟩ => ⟨S_, .f32⟩
  | .hbm, ⟨16, _⟩ => ⟨S_, .f32⟩
  | _, _ => ⟨S64x1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S64x1024x4_S64x1024x1x4_0_1_3 : S64x1024x4.BroadcastsInDim S64x1024x1x4 (![0, 1, 3] : Fin 3 → Fin S64x1024x1x4.rank)
  bcast_S64x1024x4_S64x1x1024x4_0_2_3 : S64x1024x4.BroadcastsInDim S64x1x1024x4 (![0, 2, 3] : Fin 3 → Fin S64x1x1024x4.rank)
  bcast_S64x1024x1x4_S64x1024x1024x4_0_1_2_3 : S64x1024x1x4.BroadcastsInDim S64x1024x1024x4 (![0, 1, 2, 3] : Fin 4 → Fin S64x1024x1024x4.rank)
  bcast_S64x1x1024x4_S64x1024x1024x4_0_1_2_3 : S64x1x1024x4.BroadcastsInDim S64x1024x1024x4 (![0, 1, 2, 3] : Fin 4 → Fin S64x1024x1024x4.rank)
  reducesTo_S64x1024x1024x4_S64x1024x1024_d3 : S64x1024x1024x4.ReducesTo [3] S64x1024x1024
  h_S_ : 0 < S_.numel
  reducesTo_S64x1024x1024_S64x1024_d2 : S64x1024x1024.ReducesTo [2] S64x1024
  reducesTo_S64x1024x1024_S64x1024_d1 : S64x1024x1024.ReducesTo [1] S64x1024
  reducesTo_S64x1024_S_d0_1 : S64x1024.ReducesTo [0, 1] S_

variable [Facts₀]

class Facts : Prop extends Facts₀ where

variable [Facts]
-- ==== Proof.Spec.lean ====
/-
  The Chamfer sum of two batches of point clouds, as mathematics.

  For every batch `b` there are two clouds of `n` points in four coordinates, `p` and `q`. The squared distance
  between point `i` of `p` and point `j` of `q` can be written directly, `∑ d, (p i d - q j d)²`, or expanded,
  `(∑ d, (p i d)² + ∑ d, (q j d)²) - 2 · ∑ d, p i d · q j d`. Over the real numbers the two agree (the binomial
  formula); over the extended reals they need not, since the expansion distributes a product over a difference.
  A cloud pair's total is the sum over the points of `p` of the distance to the nearest point of `q`, plus the
  sum over the points of `q` of the distance to the nearest point of `p`; a minimum is a fold of `min` from `+∞`.
  The Chamfer sum is the total over all batches. Sums of extended reals commute and associate, so a running sum
  that starts at zero and adds one batch's total at a time ends at that sum.
-/
import Idealize.ShloMosaic.PureOps.Ideal
import Idealize.ShloMosaic.PureOps.Ideal.Laws
import Idealize.ShloMosaic.Lib.ValueIdx

noncomputable section

namespace Chamfer

open Idealize.ShloMosaic

/-- The f32 pattern of `2.0` denotes the real number two. -/
theorem two_eq : Ideal.ofBits .f32 0x40000000#32 = ((2 : ℝ) : EReal) := by
  simp [Ideal.ofBits, Ideal.ieee, -EReal.coe_mul]
  norm_num

variable {n : ℕ}

/-- The squared distance between point `i` of `p` and point `j` of `q`, written directly. -/
def dirDist (p q : Fin n → Fin 4 → EReal) (i j : Fin n) : EReal :=
  ∑ d : Fin 4, (p i d - q j d) * (p i d - q j d)

/-- The same by the binomial formula: the two squared norms less twice the inner product. -/
def expDist (p q : Fin n → Fin 4 → EReal) (i j : Fin n) : EReal :=
  ((∑ d : Fin 4, p i d * p i d) + (∑ d : Fin 4, q j d * q j d))
    - Ideal.ofBits .f32 0x40000000#32 * (∑ d : Fin 4, p i d * q j d)

/-- The least of `n` numbers, folded from `+∞`. -/
def nearest (f : Fin n → EReal) : EReal :=
  (Finset.univ : Finset (Fin n)).fold min (Ideal.ofBits .f32 0x7F800000#32) f

/-- One cloud pair's total for a table `D` of distances: every row's least entry, summed, plus every column's. -/
def cloudTotal (D : Fin n → Fin n → EReal) : EReal :=
  (∑ i : Fin n, nearest fun j => D i j) + (∑ j : Fin n, nearest fun i => D i j)

/-- On clouds of real numbers the expanded distance is the direct one: `(a - b)² = a² + b² - 2ab`, coordinate by
    coordinate. -/
theorem expDist_eq_dirDist (p q : Fin n → Fin 4 → EReal) (hp : ∀ i d, ∃ r : ℝ, p i d = (r : EReal))
    (hq : ∀ j d, ∃ r : ℝ, q j d = (r : EReal)) : expDist p q = dirDist p q := by
  choose p' hp' using hp
  choose q' hq' using hq
  funext i j
  unfold expDist dirDist
  simp only [hp', hq', two_eq, Fin.sum_univ_four]
  norm_cast
  ring

/-- Batch `b`'s cloud of a `[B, n, 4]` array: point `i`, coordinate `d`. -/
def cloudOf {B : ℕ} (P : (⟨3, ![B, n, 4]⟩ : Shape).Idx → EReal) (b : Fin B) : Fin n → Fin 4 → EReal :=
  fun i d => P (ValueIdx.ix3 b i d)

/-- The Chamfer sum of two `[B, n, 4]` arrays: every batch's cloud-pair total with the direct squared distance,
    summed over the batches. -/
def chamfer {B : ℕ} (P Q : (⟨3, ![B, n, 4]⟩ : Shape).Idx → EReal) : EReal :=
  ∑ b : Fin B, cloudTotal (dirDist (cloudOf P b) (cloudOf Q b))

/-- A running sum: from `0 + T 0`, each step adding the next term, after step `k` holds the sum of the first
    `k + 1` terms. -/
theorem chain_eq_sum (T a : ℕ → EReal) (h0 : a 0 = 0 + T 0) (hs : ∀ k, a (k + 1) = a k + T (k + 1)) (k : ℕ) :
    a k = ∑ s ∈ Finset.range (k + 1), T s := by
  induction k with
  | zero => rw [h0, zero_add, Finset.sum_range_one]
  | succ k ih => rw [hs, ih, Finset.sum_range_succ _ (k + 1)]

end Chamfer

end
-- ==== Proof.LibKeepdims.lean ====
/-
  Row statistics kept as a column.

  A row-wise reduction of an `[a, b]` matrix gives one number per row; kept as an `[a, 1]` column and broadcast
  back over the `b` columns, every entry of row `p` sees row `p`'s number. These are the three index facts of
  that pattern: the reduced index with the column put back, the vector cast to a column, the column broadcast
  over the columns.
-/
import Idealize.ShloMosaic.PureOps.Ideal
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- The row index `p` with column `k` put back is `(p, k)`. -/
theorem lift_row {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the columns of an `[a, b]` matrix, read at row `p`, is the sum of that row's entries. -/
theorem rowSum_apply {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-- An `[a]` vector cast to an `[a, 1]` column reads, at `(p, u)`, the vector at `p`. -/
theorem shapeCast_a_a1_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibAxisFolds.lean ====
/-
  Folds along one axis, read at an index.

  A minimum or a sum taken along one axis of an `[a, b]` matrix gives one number per row (axis 1) or per column
  (axis 0): at row `p` it is the fold over that row's entries `(p, k)`, at column `c` the fold over that column's
  entries `(k, c)`. The same for a stack `[a, b, c]` of matrices reduced by the host along its last or its middle
  axis: at `(i, j)` the fold runs over `(i, j, k)`, respectively over `(i, k, j)`. A minimum is the fold of `min`
  from the reduction's initial value over the axis's coordinates, in any order, since `min` commutes and associates.
  All are stated for every extent.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Idealize.ShloMosaic.AxisFolds

open Idealize.ShloMosaic Idealize.ShloMosaic.ValueIdx

/-! ## The reduced index with the dropped coordinate put back -/

/-- Row `p` of a matrix with column `k` put back is `(p, k)`. -/
theorem lift_row {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- Column `c` of a matrix with row `k` put back is `(k, c)`. -/
theorem lift_col {a b : Nat} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Entry `(i, j)` of a stack reduced along its last axis, with coordinate `k` put back, is `(i, j, k)`. -/
theorem lift_last {a b c : Nat} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Entry `(i, j)` of a stack reduced along its middle axis, with coordinate `k` put back, is `(i, k, j)`. -/
theorem lift_mid {a b c : Nat} (h : (⟨3, ![a, b, c]⟩ : Shape).Reduces [1] (⟨2, ![a, c]⟩ : Shape)) (i : Fin a) (j : Fin c)
    (k : Fin ((⟨3, ![a, b, c]⟩ : Shape).size 1)) : h.lift (ix2 i j) k = ix3 i (⟨k.val, k.isLt⟩ : Fin b) j := by
  funext d; apply Fin.ext
  fin_cases d <;> rfl

/-! ## A matrix's minimum along either axis, and its sum along the rows -/

/-- A minimum along the columns of an `[a, b]` matrix, read at row `p`: the least of that row's entries and the
    initial value. -/
theorem rowMin_apply {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (p : Fin a) :
    multiReduction .minimumf [1] ⟨1, ![a]⟩ x acc h hφ hacc (ix1 p)
      = (Finset.univ : Finset (Fin b)).fold min (Ideal.ofBits φ acc) (fun k => x (ix2 p k)) := by
  rw [multiReduction_minimumf_eq_fold]
  refine (h.fold_filter_drop_single _ _ x (ix1 p)).trans ?_
  have hf : (x ∘ h.lift (ix1 p)) = fun k : Fin b => x (ix2 p k) := funext fun k => congrArg x (lift_row h p k)
  exact congrArg (fun f => Finset.fold min (Ideal.ofBits φ acc) f (Finset.univ : Finset (Fin b))) hf

/-- A minimum along the rows of an `[a, b]` matrix, read at column `c`: the least of that column's entries and the
    initial value. -/
theorem colMin_apply {a b : Nat} {φ : FTy} (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.minimumf.neutral φ hφ) (c : Fin b) :
    multiReduction .minimumf [0] ⟨1, ![b]⟩ x acc h hφ hacc (ix1 c)
      = (Finset.univ : Finset (Fin a)).fold min (Ideal.ofBits φ acc) (fun k => x (ix2 k c)) := by
  rw [multiReduction_minimumf_eq_fold]
  refine (h.fold_filter_drop_single _ _ x (ix1 c)).trans ?_
  have hf : (x ∘ h.lift (ix1 c)) = fun k : Fin a => x (ix2 k c) := funext fun k => congrArg x (lift_col h c k)
  exact congrArg (fun f => Finset.fold min (Ideal.ofBits φ acc) f (Finset.univ : Finset (Fin a))) hf

/-- A sum along the rows of an `[a, b]` matrix, read at column `c`, is the sum of that column's entries. -/
theorem colSum_apply {a b : Nat} {φ : FTy} (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ x acc h hφ hacc (ix1 c) = ∑ k : Fin a, x (ix2 k c) := by
  rw [Ideal.multiReduction_add_single]
  exact Finset.sum_congr rfl fun k _ => congrArg x (lift_col h c k)

/-! ## The host's minimum along an axis of a stack -/

/-- The host's reduce with a minimum body along the LAST axis of an `[a, b, c]` stack, at `(i, j)`: the least of
    the entries `(i, j, k)` and the initial value. -/
theorem hostMin_last_apply {a b c : Nat} {φ : FTy} {u : Shape} (x : FVec Ideal ⟨3, ![a, b, c]⟩ φ) (init : FVec Ideal u φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (i : Fin a) (j : Fin b) :
    Host.reduce FloatOps.minimumf x init h' hu (ix2 i j)
      = (Finset.univ : Finset (Fin c)).fold min (init (Shape.Idx.first hu)) (fun k => x (ix3 i j k)) := by
  rw [Host.reduce_eq_fold_single FloatOps.minimumf x init h' h hu]
  have hf : (x ∘ h.lift (ix2 i j)) = fun k : Fin c => x (ix3 i j k) := funext fun k => congrArg x (lift_last h i j k)
  exact congrArg (fun f => Finset.fold min (init (Shape.Idx.first hu)) f (Finset.univ : Finset (Fin c))) hf

/-- The same along the MIDDLE axis, at `(i, j)`: the least of the entries `(i, k, j)` and the initial value. -/
theorem hostMin_mid_apply {a b c : Nat} {φ : FTy} {u : Shape} (x : FVec Ideal ⟨3, ![a, b, c]⟩ φ) (init : FVec Ideal u φ)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (i : Fin a) (j : Fin c) :
    Host.reduce FloatOps.minimumf x init h' hu (ix2 i j)
      = (Finset.univ : Finset (Fin b)).fold min (init (Shape.Idx.first hu)) (fun k => x (ix3 i k j)) := by
  rw [Host.reduce_eq_fold_single FloatOps.minimumf x init h' h hu]
  have hf : (x ∘ h.lift (ix2 i j)) = fun k : Fin b => x (ix3 i k j) := funext fun k => congrArg x (lift_mid h i j k)
  exact congrArg (fun f => Finset.fold min (init (Shape.Idx.first hu)) f (Finset.univ : Finset (Fin b))) hf

end Idealize.ShloMosaic.AxisFolds

end
-- ==== Proof.LibRowDot.lean ====
/-
  Inner products of rows.

  Contracting an `[m, k]` matrix `A` with an `[n, k]` matrix `B` along the last axis of both gives the `[m, n]`
  table of inner products of their rows: entry `(a, b)` is `∑ c, A (a, c) · B (b, c)`, the product `A · Bᵀ`.
  At the ideal values a matrix product accumulated into zero is exactly that sum.
-/
import Idealize.ShloMosaic.PureOps.Ideal
import Idealize.ShloMosaic.PureOps.Ideal.Laws
import Idealize.ShloMosaic.Lib.ValueIdx

noncomputable section

namespace Idealize.ShloMosaic.RowDot

open Idealize.ShloMosaic Idealize.ShloMosaic.ValueIdx

variable {m n : Nat}

/-- A matrix product contracting the last axis of both operands, accumulated into zero, read at `(a, b)`: the inner
    product of row `a` of the left operand with row `b` of the right. `w` is the record's well-formedness, which a
    program states. -/
theorem matmul_rows_apply {k : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims _ _ _) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.RowDot

end
-- ==== Proof.BatchTerm.lean ====
/-
  What one grid point adds to the running sum, at the ideal values.

  At a grid point the kernel holds one batch's two clouds as `[1, 1024, 4]` blocks. It forms the `1024 × 1024`
  table of squared distances by the binomial formula — each row's squared norm kept as a column, each column's as
  a row, less twice the table of inner products of rows —, takes every row's least entry and sums those, takes
  every column's least entry and sums those, adds the two sums, and adds the result to what the accumulator held.
  The stages below are the kernel's stored value cut at those points; each is read at an index, and together they
  say that the stored value is the accumulator plus the cloud pair's total for the expanded distance.
-/
import proofs.«179723_j34815004901801_2_alg».proof.Proof.Gen.KernelIdeal.Skeleton
import proofs.«179723_j34815004901801_2_alg».proof.Proof.Spec
import proofs.«179723_j34815004901801_2_alg».proof.Proof.LibKeepdims
import proofs.«179723_j34815004901801_2_alg».proof.Proof.LibAxisFolds
import proofs.«179723_j34815004901801_2_alg».proof.Proof.LibRowDot
import Idealize.ShloMosaic.Lib.ValueLayout
import Idealize.ShloMosaic.Lib.Pipeline.Value

noncomputable section

namespace Cert.KernelIdeal.BatchTerm

open Cert.KernelIdeal Cert.KernelIdeal.Gen Idealize.ShloMosaic Idealize.ShloMosaic.ValueIdx

/-- The points of a staged cloud: point `i`, coordinate `d` of the block's one batch. -/
def cloud (x : Vec Ideal S1x1024x4 .f32) : Fin 1024 → Fin 4 → EReal := fun i d => x (ix3 (0 : Fin 1) i d)

/-- The block with its unit batch axis dropped. -/
def pts (x : Vec Ideal S1x1024x4 .f32) : FVec Ideal S1024x4 .f32 :=
  shapeCast S1024x4 x shapeCasts_S1x1024x4_S1024x4

theorem pts_apply (x : Vec Ideal S1x1024x4 .f32) (i : Fin 1024) (d : Fin 4) : pts x (ix2 i d) = cloud x i d :=
  shapeCast_1ab_ab_apply x shapeCasts_S1x1024x4_S1024x4 i d

/-- Every point's squared norm, kept as a column. -/
def normCol (a : FVec Ideal S1024x4 .f32) : FVec Ideal S1024x1 .f32 :=
  shapeCast S1024x1 (multiReduction .add [1] S1024 (mulf a a) 0x00000000#32 reduces_S1024x4_S1024 (.inl rfl) rfl)
    shapeCasts_S1024_S1024x1

theorem normCol_apply (a : FVec Ideal S1024x4 .f32) (i : Fin 1024) (u : Fin 1) :
    normCol a (ix2 i u) = ∑ d : Fin 4, a (ix2 i d) * a (ix2 i d) :=
  (Keepdims.shapeCast_a_a1_apply _ shapeCasts_S1024_S1024x1 i u).trans
    (Keepdims.rowSum_apply (mulf a a) 0x00000000#32 reduces_S1024x4_S1024 (.inl rfl) rfl i)

/-- The inner products of the rows of `a` with the rows of `b`. -/
def cross (a b : FVec Ideal S1024x4 .f32) : FVec Ideal S1024x1024 .f32 :=
  matmul dot_S1024x4_S1024x4_S1024x1024_1_1_0_0_n_n (some .fp32) a b (constant S1024x1024 .f32 0x00000000#32)

theorem cross_apply (a b : FVec Ideal S1024x4 .f32) (i j : Fin 1024) :
    cross a b (ix2 i j) = ∑ d : Fin 4, a (ix2 i d) * b (ix2 j d) :=
  RowDot.matmul_rows_apply dot_S1024x4_S1024x4_S1024x1024_1_1_0_0_n_n_wf (some .fp32) a b i j

/-- The table of squared distances by the binomial formula: row norms down the columns, column norms along the
    rows, less twice the inner products. -/
def distTab (a b : FVec Ideal S1024x4 .f32) : FVec Ideal S1024x1024 .f32 :=
  subf
    (addf (broadcastTo S1024x1024 (normCol a) broadcasts_S1024x1_S1024x1024)
      (broadcastTo S1024x1024 (transpose S1x1024 [1, 0] (normCol b) transposes_S1024x1_p1_0_S1x1024)
        broadcasts_S1x1024_S1024x1024))
    (mulf (broadcast S1024x1024 (Scalar.ofBits .f32 0x40000000#32)) (cross a b))

theorem distTab_apply (x0 x1 : Vec Ideal S1x1024x4 .f32) (i j : Fin 1024) :
    distTab (pts x0) (pts x1) (ix2 i j) = Chamfer.expDist (cloud x0) (cloud x1) i j := by
  have h1 : broadcastTo S1024x1024 (normCol (pts x0)) broadcasts_S1024x1_S1024x1024 (ix2 i j)
      = ∑ d : Fin 4, cloud x0 i d * cloud x0 i d :=
    (Keepdims.broadcastTo_a1_ab_apply _ broadcasts_S1024x1_S1024x1024 i j).trans
      ((normCol_apply (pts x0) i 0).trans (Finset.sum_congr rfl fun d _ => by rw [pts_apply]))
  have h2 : broadcastTo S1024x1024 (transpose S1x1024 [1, 0] (normCol (pts x1)) transposes_S1024x1_p1_0_S1x1024)
        broadcasts_S1x1024_S1024x1024 (ix2 i j)
      = ∑ d : Fin 4, cloud x1 j d * cloud x1 j d :=
    (broadcastTo_1b_ab_apply _ broadcasts_S1x1024_S1024x1024 i j).trans
      ((transpose_ix2_apply (normCol (pts x1)) transposes_S1024x1_p1_0_S1x1024 (0 : Fin 1) j).trans
        ((normCol_apply (pts x1) j 0).trans (Finset.sum_congr rfl fun d _ => by rw [pts_apply])))
  have h3 : cross (pts x0) (pts x1) (ix2 i j) = ∑ d : Fin 4, cloud x0 i d * cloud x1 j d :=
    (cross_apply (pts x0) (pts x1) i j).trans (Finset.sum_congr rfl fun d _ => by rw [pts_apply, pts_apply])
  show (broadcastTo S1024x1024 (normCol (pts x0)) broadcasts_S1024x1_S1024x1024 (ix2 i j)
      + broadcastTo S1024x1024 (transpose S1x1024 [1, 0] (normCol (pts x1)) transposes_S1024x1_p1_0_S1x1024)
        broadcasts_S1x1024_S1024x1024 (ix2 i j))
      - Ideal.ofBits .f32 0x40000000#32 * cross (pts x0) (pts x1) (ix2 i j) = _
  rw [h1, h2, h3]
  rfl

/-- Every row's least entry, summed, plus every column's least entry, summed: the one entry of a `[1, 1]` block. -/
def sumMins (D : FVec Ideal S1024x1024 .f32) : FVec Ideal S1x1 .f32 :=
  addf
    (shapeCast S1x1
      (multiReduction .add [0] S1
        (shapeCast S1024x1
          (multiReduction .minimumf [1] S1024 D 0x7F800000#32 reduces_S1024x1024_S1024 (.inl rfl) rfl)
          shapeCasts_S1024_S1024x1)
        0x00000000#32 reduces_S1024x1_S1 (.inl rfl) rfl)
      shapeCasts_S1_S1x1)
    (shapeCast S1x1
      (multiReduction .add [1] S1
        (shapeCast S1x1024
          (multiReduction .minimumf [0] S1024 D 0x7F800000#32 reduces_S1024x1024_S1024_2 (.inl rfl) rfl)
          shapeCasts_S1024_S1x1024)
        0x00000000#32 reduces_S1x1024_S1 (.inl rfl) rfl)
      shapeCasts_S1_S1x1)

theorem sumMins_apply (D : FVec Ideal S1024x1024 .f32) (u w : Fin 1) :
    sumMins D (ix2 u w) = Chamfer.cloudTotal fun i j => D (ix2 i j) := by
  have hr : shapeCast S1x1
        (multiReduction .add [0] S1
          (shapeCast S1024x1
            (multiReduction .minimumf [1] S1024 D 0x7F800000#32 reduces_S1024x1024_S1024 (.inl rfl) rfl)
            shapeCasts_S1024_S1024x1)
          0x00000000#32 reduces_S1024x1_S1 (.inl rfl) rfl)
        shapeCasts_S1_S1x1 (ix2 u w)
      = ∑ i : Fin 1024, Chamfer.nearest fun j => D (ix2 i j) :=
    (shapeCast_a_1a_apply _ shapeCasts_S1_S1x1 u w).trans
      ((AxisFolds.colSum_apply _ 0x00000000#32 reduces_S1024x1_S1 (.inl rfl) rfl w).trans
        (Finset.sum_congr rfl fun i _ =>
          (Keepdims.shapeCast_a_a1_apply _ shapeCasts_S1024_S1024x1 i w).trans
            (AxisFolds.rowMin_apply D 0x7F800000#32 reduces_S1024x1024_S1024 (.inl rfl) rfl i)))
  have hc : shapeCast S1x1
        (multiReduction .add [1] S1
          (shapeCast S1x1024
            (multiReduction .minimumf [0] S1024 D 0x7F800000#32 reduces_S1024x1024_S1024_2 (.inl rfl) rfl)
            shapeCasts_S1024_S1x1024)
          0x00000000#32 reduces_S1x1024_S1 (.inl rfl) rfl)
        shapeCasts_S1_S1x1 (ix2 u w)
      = ∑ j : Fin 1024, Chamfer.nearest fun i => D (ix2 i j) :=
    (shapeCast_a_1a_apply _ shapeCasts_S1_S1x1 u w).trans
      ((Keepdims.rowSum_apply _ 0x00000000#32 reduces_S1x1024_S1 (.inl rfl) rfl w).trans
        (Finset.sum_congr rfl fun j _ =>
          (shapeCast_a_1a_apply _ shapeCasts_S1024_S1x1024 w j).trans
            (AxisFolds.colMin_apply D 0x7F800000#32 reduces_S1024x1024_S1024_2 (.inl rfl) rfl j)))
  show _ + _ = _
  rw [hr, hc]
  rfl

/-- The kernel's stored value is these stages composed. -/
theorem pay2_eq (x0 x1 : Vec Ideal S1x1024x4 .f32) (xs : Vec Ideal S1x1 .f32) :
    k0_pay2 (F := Ideal) x0 x1 xs
      = shapeCast S1x1 (addf xs (sumMins (distTab (pts x0) (pts x1)))) shapeCasts_S1x1_S1x1 := rfl

/-- So what a grid point stores into the accumulator is what it held plus the cloud pair's total for the
    expanded distance. -/
theorem pay2_apply (x0 x1 : Vec Ideal S1x1024x4 .f32) (xs : Vec Ideal S1x1 .f32) (y : S1x1.Idx) :
    k0_pay2 (F := Ideal) x0 x1 xs y = xs y + Chamfer.cloudTotal (Chamfer.expDist (cloud x0) (cloud x1)) := by
  obtain ⟨u, w, rfl⟩ : ∃ (u w : Fin 1), y = ix2 u w := ⟨y 0, y 1, eq_ix2 y⟩
  rw [pay2_eq, shapeCast_self]
  show xs (ix2 u w) + sumMins (distTab (pts x0) (pts x1)) (ix2 u w) = _
  rw [sumMins_apply]
  exact congrArg (fun D => xs (ix2 u w) + Chamfer.cloudTotal D)
    (funext fun i => funext fun j => distTab_apply x0 x1 i j)

/-- The value the first grid point stores before it accumulates: the zero block. -/
theorem pay1_apply (y : S1x1.Idx) : k0_pay1 (F := Ideal) y = 0 := by
  unfold k0_pay1
  rw [shapeCast_self]
  exact Ideal.ofBits_zero_f32

end Cert.KernelIdeal.BatchTerm

end
-- ==== Proof.Pieces.lean ====
/-
  What each grid point leaves in the accumulator and in the output block.

  The body of the kernel runs in one of three ways. At the first grid point it stores the zero block into the
  accumulator, reads it back, and stores the zero block plus the point's total. At a middle point it reads the
  accumulator and stores that plus the point's total. At the last point it does the same and then copies the
  accumulator into the output block. Every store covers the whole `[1, 1]` buffer and every load reads a whole
  buffer, so what a buffer ends holding is the last stored value with the loads replaced by the buffers' contents:
  the stored value `k0_pay2` of the two input blocks and of what the accumulator held (the zero block `k0_pay1`
  at the first point). This holds for every reading of the floats.
-/
import proofs.«179723_j34815004901801_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point leaves in the accumulator the stored value over the zero block. -/
theorem sout_A (c : Dev nD) (i : grid0.Coords) (arg1 : Memref sig .tc .vmem S1x1024x4 .f32) (harg1 : arg1.IsWhole) (arg2 : Memref sig .tc .vmem S1x1024x4 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S1x1024x4 .f32) (x1 : Vec F S1x1024x4 .f32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg4.read_unread,
    View.ld_unit_zero (S := S1x1024x4) hz3, View.ld_unit_zero (S := S1x1) hz2]

/-- A middle point leaves in the accumulator the stored value over what it held. -/
theorem sout_B (c : Dev nD) (i : grid0.Coords) (arg1 : Memref sig .tc .vmem S1x1024x4 .f32) (harg1 : arg1.IsWhole) (arg2 : Memref sig .tc .vmem S1x1024x4 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S1x1024x4 .f32) (x1 : Vec F S1x1024x4 .f32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  rw [View.canon_unit_zero hz2]
  simp only [View.readAt_eq_ld, harg1.read_unread, harg2.read_unread, harg4.read_unread,
    View.ld_unit_zero (S := S1x1024x4) hz3, View.ld_unit_zero (S := S1x1) hz2]

/-- The last point leaves the same in the accumulator, -/
theorem sout_C (c : Dev nD) (i : grid0.Coords) (arg1 : Memref sig .tc .vmem S1x1024x4 .f32) (harg1 : arg1.IsWhole) (arg2 : Memref sig .tc .vmem S1x1024x4 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1x1024x4 .f32) (x1 : Vec F S1x1024x4 .f32) (xs0 : Vec F S1x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz2]
  simp only [View.readAt_eq_ld, harg1.read_unread, harg2.read_unread, harg4.read_unread,
    View.ld_unit_zero (S := S1x1024x4) hz3, View.ld_unit_zero (S := S1x1) hz2]

/-- and the same in the output block, which it copies from the accumulator. -/
theorem out_C (c : Dev nD) (i : grid0.Coords) (arg1 : Memref sig .tc .vmem S1x1024x4 .f32) (harg1 : arg1.IsWhole) (arg2 : Memref sig .tc .vmem S1x1024x4 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S1x1024x4 .f32) (x1 : Vec F S1x1024x4 .f32) (xs0 : Vec F S1x1 .f32) :
    out0_C_2 c i arg1 harg1 arg2 harg2 arg3 harg3 arg4 harg4 hc0 hc1 x0 x1 xs0 = k0_pay2 x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz2, View.readCov_unit_zero (S := S1x1) _ hz2]
  simp only [View.readAt_eq_ld, harg1.read_unread, harg2.read_unread, harg4.read_unread,
    View.ld_unit_zero (S := S1x1024x4) hz3, View.ld_unit_zero (S := S1x1) hz2]

end Cert.KernelIdeal.Pieces

end
-- ==== Proof.KernelValue.lean ====
/-
  What the kernel's program returns, at the ideal values.

  Grid point `s` stages batch `s` of both arguments. By the accumulator's recurrence — the zero block plus the
  first point's total, then each later point's total added — the accumulator holds after point `n` the sum of the
  totals of points `0 … n`, each total taken with the expanded squared distance. The last point copies the
  accumulator into the output block, the only time that block is written back, and the block is the whole `[1, 1]`
  result array; the program then reshapes that array to a scalar. So the program returns the sum over all 64
  batches of the cloud pairs' totals.
-/
import proofs.«179723_j34815004901801_2_alg».proof.Proof.Gen.KernelIdeal.Frame
import proofs.«179723_j34815004901801_2_alg».proof.Proof.BatchTerm
import proofs.«179723_j34815004901801_2_alg».proof.Proof.Pieces
import Idealize.ShloMosaic.Lib.Pipeline.Value
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The total of the cloud pair staged at grid point `s`, with the expanded squared distance (zero past the grid). -/
def term (c : Dev nD) (s : ℕ) : EReal :=
  if h : s < cfg0.N then
    Chamfer.cloudTotal (Chamfer.expDist (BatchTerm.cloud (iblk m c 0 ⟨s, h⟩)) (BatchTerm.cloud (iblk m c 1 ⟨s, h⟩)))
  else 0

theorem term_of_lt (c : Dev nD) (s : ℕ) (h : s < cfg0.N) :
    term m c s
      = Chamfer.cloudTotal (Chamfer.expDist (BatchTerm.cloud (iblk m c 0 ⟨s, h⟩)) (BatchTerm.cloud (iblk m c 1 ⟨s, h⟩))) :=
  dif_pos h

/-- After grid point `n` the accumulator holds the totals of points `0 … n`, summed. -/
theorem acc_eq (c : Dev nD) : ∀ (n : ℕ) (h : n < cfg0.N),
    (outsAt0 m c n h).2 = fun _ => ∑ s ∈ Finset.range (n + 1), term m c s
  | 0, h => by
    rw [outsAt0_A m c ⟨0, h⟩ rfl (by show ¬(0 % 64 = 63); decide)]
    dsimp only
    rw [Pieces.sout_A c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) scM0_0 (Memref.isWhole_whole _) _ _ (iblk m c 0 ⟨0, h⟩) (iblk m c 1 ⟨0, h⟩)]
    funext y
    rw [BatchTerm.pay2_apply (iblk m c 0 ⟨0, h⟩) (iblk m c 1 ⟨0, h⟩) _ y, BatchTerm.pay1_apply, zero_add,
      Finset.sum_range_one, term_of_lt m c 0 h]
  | n + 1, h => by
    have hN : cfg0.N = 64 := N_0
    have h0 : ¬(⟨n + 1, h⟩ : Fin cfg0.N).val % 64 = 0 := by dsimp only; omega
    have ih : (outsAt0 m c ((⟨n + 1, h⟩ : Fin cfg0.N).val - 1)
          (Nat.lt_of_le_of_lt (Nat.sub_le _ _) (⟨n + 1, h⟩ : Fin cfg0.N).isLt)).2
        = fun _ => ∑ s ∈ Finset.range (n + 1), term m c s := acc_eq c n (Nat.lt_of_succ_lt h)
    by_cases h1 : (⟨n + 1, h⟩ : Fin cfg0.N).val % 64 = 63
    · rw [outsAt0_C m c ⟨n + 1, h⟩ h0 h1]
      dsimp only
      rw [Pieces.sout_C c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩) _]
      funext y
      rw [BatchTerm.pay2_apply (iblk m c 0 ⟨n + 1, h⟩) (iblk m c 1 ⟨n + 1, h⟩) _ y, ih,
        Finset.sum_range_succ _ (n + 1), term_of_lt m c (n + 1) h]
    · rw [outsAt0_B m c ⟨n + 1, h⟩ h0 h1]
      dsimp only
      rw [Pieces.sout_B c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩) _]
      funext y
      rw [BatchTerm.pay2_apply (iblk m c 0 ⟨n + 1, h⟩) (iblk m c 1 ⟨n + 1, h⟩) _ y, ih,
        Finset.sum_range_succ _ (n + 1), term_of_lt m c (n + 1) h]

/-- At the last grid point the output block is left holding what the accumulator holds. -/
theorem out_last (c : Dev nD) (t : Fin cfg0.N) (h1 : t.val % 64 = 63) :
    (outsAt0 m c t.val t.isLt).1 = (outsAt0 m c t.val t.isLt).2 := by
  have h0 : ¬t.val % 64 = 0 := by omega
  rw [outsAt0_C m c t h0 h1]
  dsimp only
  rw [Pieces.out_C c (grid0.coords t) (ms0_0 t) (hs0_0 t) (ms0_1 t) (hs0_1 t) (ms0_2 t) (hs0_2 t) scM0_0
      (Memref.isWhole_whole _) _ _ (iblk m c 0 t) (iblk m c 1 t) _,
    Pieces.sout_C c (grid0.coords t) (ms0_0 t) (hs0_0 t) (ms0_1 t) (hs0_1 t) (ms0_2 t) (hs0_2 t) scM0_0
      (Memref.isWhole_whole _) _ _ (iblk m c 0 t) (iblk m c 1 t) _]

/-- The last grid point. -/
def tLast : Fin cfg0.N := ⟨63, by rw [show cfg0.N = 64 from N_0]; decide⟩

/-- The sum over the 64 grid points of their totals. -/
def total (c : Dev nD) : EReal := ∑ s ∈ Finset.range 64, term m c s

/-- The result array's contents after the run: its one entry is that sum. -/
abbrev result (c : Dev nD) : Buf (Elt Ideal) ((c : Thread nD τ).loc main_v0) := fun _ => total m c

/-- The one write-back, at the last point, writes it: block (0, 0) of the `[1, 1]` array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val % 64 = 63 := (flush0_2 t).mp hf
  have hv : t.val = 63 := by have := t.isLt; omega
  obtain rfl : t = tLast := Fin.ext hv
  show (cfg0.win 2).cut (grid0.coords tLast) ((dats m 0 c).after 2 tLast) = _
  rw [after0_2, out_last m c tLast rfl, acc_eq m c tLast.val tLast.isLt]
  have hz' : (fun a => win0_2.index tLast a * main_v0.ty.shape.size a) = fun _ => 0 :=
    funext fun a => by fin_cases a <;> decide
  exact (Memref.read_access_unit_zero (Elt Ideal) main_v0 hz' (fun a => by rw [congrFun hz' a]; simp) (result m c)).symm

/-- So the result array ends holding the sum: the last point's block covers it. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 1 from by decide +kernel]; omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 1 from by decide +kernel]; omega⟩

/-- The reshape after the region reads the result array's one entry. -/
theorem tail_eq (c : Dev nD) :
    Pipeline.afterTail₀ cfgs (dats m) 0 (V0 m) [hostOps1] c main_v1 = fun _ => total m c := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0) = result m c :=
    (Pipeline.withArrays_arr spec0 launch0.win.arr_inj c _ _ 2).trans (final_o m c)
  rw [e]
  rfl

/-- The run, read: the program's result is the sum over the grid points of their totals, and the arguments are
    unchanged. -/
theorem run : θ_run defs (onTc (τ := τ) (main (F := Ideal))) ⟨m, fun _ => 0, ρ⟩ fun r => ∀ c : Dev nD,
      r.2.mem ((c : Thread nD τ).loc main_v1) = (fun _ => total m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.KernelSum.lean ====
/-
  The kernel's sum is the Chamfer sum, on real inputs.

  The two input windows stage, at grid point `t`, batch `t` of the two arguments: block `(t, 0, 0)` of a
  `[64, 1024, 4]` array in blocks of `[1, 1024, 4]`, so entry `(0, i, d)` of the block is entry `(t, i, d)` of the
  array. The kernel's total at point `t` is therefore batch `t`'s cloud-pair total with the expanded squared distance;
  where every entry of both arguments is a real number the expanded distance is the direct one, and the sum over
  the 64 grid points is the sum over the 64 batches.
-/
import proofs.«179723_j34815004901801_2_alg».proof.Proof.KernelValue

noncomputable section

namespace Cert.KernelIdeal.RunValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Window 0's block index at grid point `t` is `(t, 0, 0)`. -/
theorem idx_facts0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Window 1's likewise. -/
theorem idx_facts1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The first window's block at point `t` is batch `t` of the first argument. -/
theorem cloud_iblk0 (c : Dev nD) (t : Fin cfg0.N) :
    BatchTerm.cloud (iblk m c 0 t)
      = Chamfer.cloudOf (B := 64) (n := 1024) (m ((c : Thread nD τ).loc main_arg0)) ⟨t.val, lt_of_lt_of_eq t.isLt N_0⟩ := by
  funext i d
  unfold BatchTerm.cloud Chamfer.cloudOf iblk
  rw [View.read_apply]
  show V m c main_arg0 _ = m ((c : Thread nD τ).loc main_arg0) _
  rw [V_main_arg0]
  refine congrArg _ (funext fun a => Fin.ext ?_)
  match a with
  | ⟨0, _⟩ => show win0_0.index t 0 * 1 + 1 * 0 = t.val; rw [(idx_facts0 t).1]; omega
  | ⟨1, _⟩ => show win0_0.index t 1 * 1024 + 1 * i.val = i.val; rw [(idx_facts0 t).2.1]; omega
  | ⟨2, _⟩ => show win0_0.index t 2 * 4 + 1 * d.val = d.val; rw [(idx_facts0 t).2.2]; omega

/-- The second window's block at point `t` is batch `t` of the second argument. -/
theorem cloud_iblk1 (c : Dev nD) (t : Fin cfg0.N) :
    BatchTerm.cloud (iblk m c 1 t)
      = Chamfer.cloudOf (B := 64) (n := 1024) (m ((c : Thread nD τ).loc main_arg1)) ⟨t.val, lt_of_lt_of_eq t.isLt N_0⟩ := by
  funext i d
  unfold BatchTerm.cloud Chamfer.cloudOf iblk
  rw [View.read_apply]
  show V m c main_arg1 _ = m ((c : Thread nD τ).loc main_arg1) _
  rw [V_main_arg1]
  refine congrArg _ (funext fun a => Fin.ext ?_)
  match a with
  | ⟨0, _⟩ => show win0_1.index t 0 * 1 + 1 * 0 = t.val; rw [(idx_facts1 t).1]; omega
  | ⟨1, _⟩ => show win0_1.index t 1 * 1024 + 1 * i.val = i.val; rw [(idx_facts1 t).2.1]; omega
  | ⟨2, _⟩ => show win0_1.index t 2 * 4 + 1 * d.val = d.val; rw [(idx_facts1 t).2.2]; omega

/-- Where both arguments hold real numbers, the sum of the grid points' totals is the Chamfer sum of the arguments. -/
theorem total_eq (c : Dev nD)
    (h0 : ∀ i, ∃ r : ℝ, m ((c : Thread nD τ).loc main_arg0) i = (r : EReal))
    (h1 : ∀ i, ∃ r : ℝ, m ((c : Thread nD τ).loc main_arg1) i = (r : EReal)) :
    total m c = Chamfer.chamfer (B := 64) (n := 1024) (m ((c : Thread nD τ).loc main_arg0))
      (m ((c : Thread nD τ).loc main_arg1)) := by
  unfold total Chamfer.chamfer
  rw [Finset.sum_range]
  refine Finset.sum_congr rfl fun b _ => ?_
  have hb : b.val < cfg0.N := lt_of_lt_of_eq b.isLt N_0.symm
  rw [term_of_lt m c b.val hb, cloud_iblk0 m c ⟨b.val, hb⟩, cloud_iblk1 m c ⟨b.val, hb⟩]
  exact congrArg Chamfer.cloudTotal
    (Chamfer.expDist_eq_dirDist _ _ (fun i d => h0 _) (fun j d => h1 _))

end Cert.KernelIdeal.RunValue

end
-- ==== Proof.RefValue.lean ====
/-
  What the reference returns, at the ideal values.

  The reference subtracts every point of `q` from every point of `p`, batch by batch, squares and sums over the four
  coordinates: entry `(b, i, j)` of its distance array is the direct squared distance between point `i` of `p` and
  point `j` of `q` in batch `b`. It takes the minimum along `j` and along `i`, adds the two `[64, 1024]` arrays entry
  by entry, and sums everything from zero. A sum over `(b, k)` of a sum of two terms is, batch by batch, the sum of
  the first terms plus the sum of the second: each batch's cloud-pair total. No law beyond the commutativity and
  associativity of addition is used, so this holds for all extended reals.
-/
import proofs.«179723_j34815004901801_2_alg».proof.Proof.Gen.ReferenceIdeal.Read
import proofs.«179723_j34815004901801_2_alg».proof.Proof.Spec
import proofs.«179723_j34815004901801_2_alg».proof.Proof.LibAxisFolds
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- Entry `(b, i, j)` of the reference's distance array is the direct squared distance in batch `b`. -/
theorem dist_apply (x0 x1 : (⟨S64x1024x4, .f32⟩ : BufTy).Contents (Elt Ideal)) (b : Fin 64) (i j : Fin 1024) :
    val_main_v6 (F := Ideal) x0 x1 (ix3 b i j)
      = Chamfer.dirDist (Chamfer.cloudOf (B := 64) (n := 1024) x0 b) (Chamfer.cloudOf (B := 64) (n := 1024) x1 b) i j := by
  rw [val_main_v6_apply]
  show Ideal.ofBits .f32 0x00000000#32 + _ = _
  rw [Ideal.ofBits_zero_f32, zero_add]
  unfold Chamfer.dirDist
  refine Finset.sum_congr rfl fun k _ => ?_
  have e0 : idx_main_v0 (idx_main_v2 (idx_main_v6 (ix3 b i j) k)) = ix3 b i k :=
    funext fun a => Fin.ext (by match a with | ⟨0, _⟩ => rfl | ⟨1, _⟩ => rfl | ⟨2, _⟩ => rfl)
  have e1 : idx_main_v1 (idx_main_v3 (idx_main_v6 (ix3 b i j) k)) = ix3 b j k :=
    funext fun a => Fin.ext (by match a with | ⟨0, _⟩ => rfl | ⟨1, _⟩ => rfl | ⟨2, _⟩ => rfl)
  rw [val_main_v5_apply, val_main_v4_apply, val_main_v2_apply, val_main_v3_apply, val_main_v0_apply,
    val_main_v1_apply, e0, e1]
  rfl

/-- The reference's result is the Chamfer sum of its two arguments. -/
theorem result_eq (x0 x1 : (⟨S64x1024x4, .f32⟩ : BufTy).Contents (Elt Ideal)) :
    val_main_v10 (F := Ideal) x0 x1 = fun _ => Chamfer.chamfer (B := 64) (n := 1024) x0 x1 := by
  funext i
  rw [val_main_v10_apply]
  show Ideal.ofBits .f32 0x00000000#32 + _ = _
  rw [Ideal.ofBits_zero_f32, zero_add, sum_idx2]
  unfold Chamfer.chamfer Chamfer.cloudTotal
  refine Finset.sum_congr rfl fun b _ => ?_
  rw [← Finset.sum_add_distrib]
  refine Finset.sum_congr rfl fun k _ => ?_
  rw [val_main_v9_apply]
  have h7 : val_main_v7 (F := Ideal) x0 x1 (ix2 b k)
      = Chamfer.nearest fun j => Chamfer.dirDist (Chamfer.cloudOf (B := 64) (n := 1024) x0 b)
          (Chamfer.cloudOf (B := 64) (n := 1024) x1 b) k j :=
    (AxisFolds.hostMin_last_apply (val_main_v6 (F := Ideal) x0 x1) (val_main_cst_0 (F := Ideal))
        reducesTo_S64x1024x1024_S64x1024_d2 (by decide) h_S_ b k).trans
      (congrArg (fun f => Finset.fold min (Ideal.ofBits .f32 0x7F800000#32) f (Finset.univ : Finset (Fin 1024)))
        (funext fun j => dist_apply x0 x1 b k j))
  have h8 : val_main_v8 (F := Ideal) x0 x1 (ix2 b k)
      = Chamfer.nearest fun i => Chamfer.dirDist (Chamfer.cloudOf (B := 64) (n := 1024) x0 b)
          (Chamfer.cloudOf (B := 64) (n := 1024) x1 b) i k :=
    (AxisFolds.hostMin_mid_apply (val_main_v6 (F := Ideal) x0 x1) (val_main_cst_1 (F := Ideal))
        reducesTo_S64x1024x1024_S64x1024_d1 (by decide) h_S_ b k).trans
      (congrArg (fun f => Finset.fold min (Ideal.ofBits .f32 0x7F800000#32) f (Finset.univ : Finset (Fin 1024)))
        (funext fun i => dist_apply x0 x1 b i k))
  show val_main_v7 (F := Ideal) x0 x1 (ix2 b k) + val_main_v8 (F := Ideal) x0 x1 (ix2 b k) = _
  rw [h7, h8]

end Cert.ReferenceIdeal.RefValue

end
-- ==== Proof.Finite.lean ====
/-
  The precondition, read: every entry of both arguments is a real number.

  The precondition compares the absolute value of every entry of each argument with `+∞`, takes the conjunction over
  all entries of each, and the conjunction of the two. An extended real whose absolute value `max x (-x)` is below
  `+∞` is neither `+∞` nor `-∞`: it is a real number.
-/
import proofs.«179723_j34815004901801_2_alg».proof.Pre_finite_inputs
import proofs.«179723_j34815004901801_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Finite

open Cert.Pre_finite_inputs Cert.Pre_finite_inputs.Gen Idealize.ShloMosaic

instance : Subsingleton S_.Idx := ⟨fun a b => funext fun d => d.elim0⟩

/-- An extended real whose absolute value compares below `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Where the precondition holds, every entry of both arguments is a real number. -/
theorem real_of_pre (x0 x1 : FVec Ideal S64x1024x4 .f32) (h : fn (F := Ideal) x0 x1 = fun _ => 1#1) :
    (∀ i, ∃ r : ℝ, x0 i = (r : EReal)) ∧ (∀ i, ∃ r : ℝ, x1 i = (r : EReal)) := by
  have h' := congrFun h ValueIdx.ix0
  dsimp only [fn] at h'
  obtain ⟨ha, hb⟩ := IntOp.andi_eq_one.mp h'
  exact ⟨fun i => real_of_abs_lt (x0 i) (Host.reduce_andi_all _ _ _ _ _ ha i),
    fun i => real_of_abs_lt (x1 i) (Host.reduce_andi_all _ _ _ _ _ hb i)⟩

end Cert.Pre_finite_inputs.Finite

end
-- ==== Proof.lean ====
/-
  A Pallas kernel for the Chamfer sum of two batches of point clouds against its jnp reference, over the extended
  reals.

  For 64 batches of two clouds of 1024 points in four coordinates, the reference forms every squared distance
  `∑ d, (p i d - q j d)²` directly, takes for every point the distance to the nearest point of the other cloud, and
  sums all of these. The kernel visits one batch per grid point; it forms the same table of distances by the binomial
  formula, `|p i|² + |q j|² - 2 · p i · q j` with the inner products from one matrix product, takes every row's and
  every column's minimum, adds the two sums, and accumulates the batches' totals in a scratch buffer that it copies
  to the result at the last grid point. Summation order and grouping do not matter for extended reals, and the
  minima are taken over equal tables once the binomial formula applies — which it does on real numbers, so this is
  where the precondition (every input finite) is used; with an infinite input the two sides can differ.

  The frames of the two kernel programs are the generated ones; the reference's frame is its generated run with the
  result dropped. The ideal pass rewrote nothing, so there is nothing to preserve.
-/
import proofs.«179723_j34815004901801_2_alg».proof.Defs
import proofs.«179723_j34815004901801_2_alg».proof.Proof.Gen.Kernel
import proofs.«179723_j34815004901801_2_alg».proof.Proof.Gen.Kernel.Skeleton
import proofs.«179723_j34815004901801_2_alg».proof.Proof.Gen.Kernel.Launch
import proofs.«179723_j34815004901801_2_alg».proof.Proof.Gen.Kernel.Points
import proofs.«179723_j34815004901801_2_alg».proof.Proof.Gen.Kernel.Frame
import proofs.«179723_j34815004901801_2_alg».proof.Proof.Gen.KernelIdeal
import proofs.«179723_j34815004901801_2_alg».proof.Proof.Gen.KernelIdeal.Skeleton
import proofs.«179723_j34815004901801_2_alg».proof.Proof.Gen.KernelIdeal.Launch
import proofs.«179723_j34815004901801_2_alg».proof.Proof.Gen.KernelIdeal.Points
import proofs.«179723_j34815004901801_2_alg».proof.Proof.Gen.KernelIdeal.Frame
import proofs.«179723_j34815004901801_2_alg».proof.Proof.Gen.ReferenceIdeal
import proofs.«179723_j34815004901801_2_alg».proof.Proof.Gen.ReferenceIdeal.Run
import proofs.«179723_j34815004901801_2_alg».proof.Proof.Gen.ReferenceIdeal.Read
import proofs.«179723_j34815004901801_2_alg».proof.Proof.Gen.Pre_finite_inputs
import proofs.«179723_j34815004901801_2_alg».proof.Proof.KernelSum
import proofs.«179723_j34815004901801_2_alg».proof.Proof.RefValue
import proofs.«179723_j34815004901801_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs return the Chamfer sum of the arguments: the kernel because its inputs are real numbers, so that
    its expanded distances are the direct ones; the reference on all inputs. -/
theorem algebraic : Cert.algebraic_KernelIdeal_ReferenceIdeal := by
  intro m ρ m' ρ' hpre hagree
  refine ⟨fun c _ => Chamfer.chamfer (B := 64) (n := 1024)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.RunValue.run m ρ)
    obtain ⟨h0, h1⟩ := Cert.Pre_finite_inputs.Finite.real_of_pre _ _ (hpre c)
    exact funext fun _ => Cert.KernelIdeal.RunValue.total_eq m c h0 h1
  · refine (θ_run Cert.ReferenceIdeal.defs _ _).mono (fun _ h c => ⟨?_, (h c).2⟩)
      (Cert.ReferenceIdeal.Value.run (F := Ideal) m' ρ')
    rw [(h c).1, Cert.ReferenceIdeal.Read.val_main_v10_eq, Cert.ReferenceIdeal.RefValue.result_eq, (hagree c).1,
      (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
